-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S512x2048 : Shape := ⟨2, ![512, 2048]⟩
abbrev S256x2048 : Shape := ⟨2, ![256, 2048]⟩
abbrev S256x1 : Shape := ⟨2, ![256, 1]⟩
abbrev S1x256 : Shape := ⟨2, ![1, 256]⟩
abbrev S512x256 : Shape := ⟨2, ![512, 256]⟩
abbrev S4x2048x11008 : Shape := ⟨3, ![4, 2048, 11008]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S8192x4096, .f32⟩
  | .hbm, ⟨5, _⟩ => ⟨S1x11008, .f32⟩
  | .hbm, ⟨6, _⟩ => ⟨S8192x11008, .f32⟩
  | .hbm, ⟨7, _⟩ => ⟨S4x2048x11008, .f32⟩
  | .local _ .vmem, ⟨0, _⟩ => ⟨S512x2048, .f32⟩
  | .local _ .vmem, ⟨1, _⟩ => ⟨S512x2048, .f32⟩
  | .local _ .vmem, ⟨2, _⟩ => ⟨S256x2048, .i32⟩
  | .local _ .vmem, ⟨3, _⟩ => ⟨S256x2048, .i32⟩
  | .local _ .vmem, ⟨4, _⟩ => ⟨S256x1, .f32⟩
  | .local _ .vmem, ⟨5, _⟩ => ⟨S256x1, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 43, 2], ![false, false, false]⟩

def k0_cond2 (i : grid0.Coords) : BitVec 1 :=
  let arg2 : BitVec 32 := BitVec.ofNat 32 (i 2).val
  let c1_i32 : BitVec 32 := 1#32
  let v20 : BitVec 1 := Scalar.cmpi .eq arg2 c1_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S11008_S1x11008 : S11008.ShapeCasts S1x11008
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  broadcasts_S256x1_S256x2048 : S256x1.Broadcasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S8192x11008_S4x2048x11008 : S8192x11008.ShapeCasts S4x2048x11008
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .i32 = 32 ∨ (Rect.block (s := S11008x4096) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x11008.size a
  hwx0_4 : ∀ i : grid0.Coords, EltTy.bits .f32 = 32 ∨ (Rect.block (s := S8192x11008) S512x256.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩
abbrev S4x2048x11008 : Shape := ⟨3, ![4, 2048, 11008]⟩
abbrev S1x1x11008 : Shape := ⟨3, ![1, 1, 11008]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S4x2048x11008, .f32⟩
  | .hbm, ⟨11, _⟩ => ⟨S1x1x11008, .f32⟩
  | .hbm, ⟨12, _⟩ => ⟨S4x2048x11008, .f32⟩
  | .hbm, ⟨13, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Blocks.lean ====
/-
  Where each block sits in its array.

  The grid has 16 × 43 × 2 points, the reduction coordinate fastest: point `t` has row block `t / 86`, channel block
  `t / 2 % 43` and reduction coordinate `t % 2`. At point `t` the `x` window holds rows `512·(t/86) …` and features
  `2048·(t%2) …` of `x` with batch and sequence merged (row `r` is batch `r / 2048`, position `r % 2048`); the weight
  window holds channels `256·(t/2%43) …` and the same features; the scale and bias windows hold those channels; the
  output block is rows `512·(t/86) …`, channels `256·(t/2%43) …` of the merged result. Each lemma reads one element of a block as
  one element of an argument array, for any float values.
-/
import proofs.«144650_j24180665877009_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five index maps in closed form, decided over the 1376 grid points. -/
theorem idx_facts : ∀ t : Fin cfg0.N,
    win0_0.index t (0 : Fin 2) = t.val / 86 ∧ win0_0.index t (1 : Fin 2) = t.val % 2
    ∧ win0_1.index t (0 : Fin 2) = t.val / 2 % 43 ∧ win0_1.index t (1 : Fin 2) = t.val % 2
    ∧ win0_2.index t (0 : Fin 2) = t.val / 2 % 43 ∧ win0_2.index t (1 : Fin 2) = 0
    ∧ win0_3.index t (0 : Fin 2) = 0 ∧ win0_3.index t (1 : Fin 2) = t.val / 2 % 43
    ∧ win0_4.index t (0 : Fin 2) = t.val / 86 ∧ win0_4.index t (1 : Fin 2) = t.val / 2 % 43 :=
  (by decide +kernel : ∀ t : Fin grid0.N, _)

/-! ## The two arrays the host reshapes before the launch -/

/-- `x` with batch and sequence merged: row `r`, feature `k` is `x[r / 2048, r % 2048, k]` (same row-major position). -/
theorem merged_x_apply (c : Dev nD) (k : S8192x4096.Idx) (i : S4x2048x4096.Idx)
    (h : ((i 0).val * 2048 + (i 1).val) * 4096 + (i 2).val = (k 0).val * 4096 + (k 1).val) :
    (V m c main_v0 : S8192x4096.Idx → Elt F .f32) k = ((m ((c : Thread nD τ).loc main_arg0)) : S4x2048x4096.Idx → Elt F .f32) i := by
  have e : (V m c main_v0 : S8192x4096.Idx → Elt F .f32)
      = shapeCast S8192x4096 (m ((c : Thread nD τ).loc main_arg0)) shapeCasts_S4x2048x4096_S8192x4096 := by
    show StableHlo.after hostOps0 (fun b => m (c, b)) (Proc.devRef .tc main_v0) = _
    after_results; rfl
  rw [e]
  exact shapeCast_apply _ _ k i (by rw [Shape.rowMajor_val_three, Shape.rowMajor_val_two]; exact h)

/-- `bias` as a row: entry `(0, o)` is `bias[o]`. -/
theorem bias_row_apply (c : Dev nD) (u : Fin 1) (o : Fin 11008) :
    (V m c main_v1 : S1x11008.Idx → Elt F .f32) (ix2 u o) = ((m ((c : Thread nD τ).loc main_arg3)) : S11008.Idx → Elt F .f32) (ix1 o) := by
  have e : (V m c main_v1 : S1x11008.Idx → Elt F .f32)
      = shapeCast S1x11008 (m ((c : Thread nD τ).loc main_arg3)) shapeCasts_S11008_S1x11008 := by
    show StableHlo.after hostOps0 (fun b => m (c, b)) (Proc.devRef .tc main_v1) = _
    after_results; rfl
  rw [e]
  exact shapeCast_a_1a_apply _ _ u o

/-! ## The input blocks -/

/-- The `x` block at point `t`. -/
theorem x_block_apply (c : Dev nD) (t : Fin cfg0.N) (y : S512x2048.Idx) (i : S4x2048x4096.Idx)
    (hr : (i 0).val * 2048 + (i 1).val = 512 * (t.val / 86) + (y 0).val)
    (hk : (i 2).val = 2048 * (t.val % 2) + (y 1).val) :
    (iblk m c 0 t : Vec F S512x2048 .f32) y = ((m ((c : Thread nD τ).loc main_arg0)) : S4x2048x4096.Idx → Elt F .f32) i := by
  obtain ⟨e00, e01, -⟩ := idx_facts t
  have hy0 : (y 0).val < 512 := (y 0).isLt
  have hy1 : (y 1).val < 2048 := (y 1).isLt
  have ht : t.val < 1376 := lt_of_lt_of_eq t.isLt (show cfg0.N = 1376 from N_0)
  unfold iblk
  rw [View.read_apply]
  show (V m c main_v0 : S8192x4096.Idx → Elt F .f32) (((cfg0.win 0).blk t).view.emb y) = _
  refine merged_x_apply m c _ i ?_
  show ((i 0).val * 2048 + (i 1).val) * 4096 + (i 2).val
    = (win0_0.index t (0 : Fin 2) * 512 + 1 * (y 0).val) * 4096 + (win0_0.index t (1 : Fin 2) * 2048 + 1 * (y 1).val)
  rw [e00, e01, hr, hk]; omega

/-- The weight block at point `t`. -/
theorem q_block_apply (c : Dev nD) (t : Fin cfg0.N) (y : S256x2048.Idx) (i : S11008x4096.Idx)
    (ho : (i 0).val = 256 * (t.val / 2 % 43) + (y 0).val) (hk : (i 1).val = 2048 * (t.val % 2) + (y 1).val) :
    (iblk m c 1 t : Vec F S256x2048 .i32) y = ((m ((c : Thread nD τ).loc main_arg1)) : S11008x4096.Idx → Elt F .i32) i := by
  obtain ⟨-, -, e10, e11, -⟩ := idx_facts t
  unfold iblk
  rw [View.read_apply]
  show (V m c main_arg1 : S11008x4096.Idx → Elt F .i32) (((cfg0.win 1).blk t).view.emb y) = _
  rw [V_main_arg1 m c]
  refine congrArg (m ((c : Thread nD τ).loc main_arg1)) ?_
  funext a; apply Fin.ext
  match a with
  | ⟨0, _⟩ => show win0_1.index t (0 : Fin 2) * 256 + 1 * (y 0).val = (i 0).val; rw [e10, ho]; omega
  | ⟨1, _⟩ => show win0_1.index t (1 : Fin 2) * 2048 + 1 * (y 1).val = (i 1).val; rw [e11, hk]; omega

/-- The scale block at point `t`. -/
theorem s_block_apply (c : Dev nD) (t : Fin cfg0.N) (y : S256x1.Idx) (i : S11008x1.Idx)
    (ho : (i 0).val = 256 * (t.val / 2 % 43) + (y 0).val) :
    (iblk m c 2 t : Vec F S256x1 .f32) y = ((m ((c : Thread nD τ).loc main_arg2)) : S11008x1.Idx → Elt F .f32) i := by
  obtain ⟨-, -, -, -, e20, e21, -⟩ := idx_facts t
  have hy1 : (y 1).val < 1 := (y 1).isLt
  have hi1 : (i 1).val < 1 := (i 1).isLt
  unfold iblk
  rw [View.read_apply]
  show (V m c main_arg2 : S11008x1.Idx → Elt F .f32) (((cfg0.win 2).blk t).view.emb y) = _
  rw [V_main_arg2 m c]
  refine congrArg (m ((c : Thread nD τ).loc main_arg2)) ?_
  funext a; apply Fin.ext
  match a with
  | ⟨0, _⟩ => show win0_2.index t (0 : Fin 2) * 256 + 1 * (y 0).val = (i 0).val; rw [e20, ho]; omega
  | ⟨1, _⟩ => show win0_2.index t (1 : Fin 2) * 1 + 1 * (y 1).val = (i 1).val; rw [e21]; omega

/-- The bias block at point `t`. -/
theorem b_block_apply (c : Dev nD) (t : Fin cfg0.N) (q : Fin 256) (o : Fin 11008)
    (ho : o.val = 256 * (t.val / 2 % 43) + q.val) :
    (iblk m c 3 t : Vec F S1x256 .f32) (ix2 (0 : Fin 1) q) = ((m ((c : Thread nD τ).loc main_arg3)) : S11008.Idx → Elt F .f32) (ix1 o) := by
  obtain ⟨-, -, -, -, -, -, e30, e31, -⟩ := idx_facts t
  unfold iblk
  rw [View.read_apply]
  show (V m c main_v1 : S1x11008.Idx → Elt F .f32) (((cfg0.win 3).blk t).view.emb (ix2 (0 : Fin 1) q)) = _
  refine Eq.trans (congrArg (V m c main_v1 : S1x11008.Idx → Elt F .f32) ?_) (bias_row_apply m c (0 : Fin 1) o)
  funext a; apply Fin.ext
  match a with
  | ⟨0, _⟩ => show win0_3.index t (0 : Fin 2) * 1 + 1 * 0 = 0; rw [e30]
  | ⟨1, _⟩ => show win0_3.index t (1 : Fin 2) * 256 + 1 * q.val = o.val; rw [e31, ho]; omega

/-! ## The output block -/

/-- Element `(p, q)` of the output block at point `t` is element `(512·(t/86) + p, 256·(t/2%43) + q)` of the merged result. -/
theorem out_block_emb (t : Fin cfg0.N) (p : Fin 512) (q : Fin 256) (j : S8192x11008.Idx)
    (h0 : (j 0).val = 512 * (t.val / 86) + p.val) (h1 : (j 1).val = 256 * (t.val / 2 % 43) + q.val) :
    (((cfg0.win 4).blk t).view.emb (ix2 p q) : S8192x11008.Idx) = j := by
  obtain ⟨-, -, -, -, -, -, -, -, e40, e41⟩ := idx_facts t
  funext a; apply Fin.ext
  match a with
  | ⟨0, _⟩ => show win0_4.index t (0 : Fin 2) * 512 + 1 * p.val = (j 0).val; rw [e40, h0]; omega
  | ⟨1, _⟩ => show win0_4.index t (1 : Fin 2) * 256 + 1 * q.val = (j 1).val; rw [e41, h1]; omega

end Cert.KernelIdeal.Blocks

end
-- ==== Proof.Pieces.lean ====
import proofs.«144650_j24180665877009_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-! ## What one run of the body leaves, as values

The body keeps a running block in its scratch buffer. At a grid point whose reduction coordinate is 0 it first
stores the zero block there; at every point it adds to the block the product of the point's `x` block with the
transposed dequantized weight block; at a point whose reduction coordinate is 1 it also stores the block plus the
bias row into the output block. Each lemma below reads the block one case of the body leaves as the body's
arithmetic applied to the blocks it loaded, for any float values. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a point with reduction coordinate 1 the scratch ends at the block found there plus this point's product. -/
theorem sout_B (c : Dev nD) (i : grid0.Coords) (a3 : Memref sig .tc .vmem S512x2048 .f32) (h3 : a3.IsWhole)
    (a4 : Memref sig .tc .vmem S256x2048 .i32) (h4 : a4.IsWhole) (a5 : Memref sig .tc .vmem S256x1 .f32) (h5 : a5.IsWhole)
    (a6 : Memref sig .tc .vmem S1x256 .f32) (h6 : a6.IsWhole) (a7 : Memref sig .tc .vmem S512x256 .f32) (h7 : a7.IsWhole)
    (a8 : Memref sig .tc .vmem S512x256 .f32) (h8 : a8.IsWhole) (hc0 : ¬cond0_0 i) (hc1 : cond0_1 i)
    (x0 : Vec F S512x2048 .f32) (x1 : Vec F S256x2048 .i32) (x2 : Vec F S256x1 .f32) (x3 : Vec F S1x256 .f32) (xs0 : Vec F S512x256 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread,
    View.ld_unit_zero (S := S512x2048) hz, View.ld_unit_zero (S := S256x2048) hz, View.ld_unit_zero (S := S256x1) hz,
    View.ld_unit_zero (S := S512x256) hz]

/-- At such a point the output block ends at that new scratch block plus the bias row. -/
theorem out_B (c : Dev nD) (i : grid0.Coords) (a3 : Memref sig .tc .vmem S512x2048 .f32) (h3 : a3.IsWhole)
    (a4 : Memref sig .tc .vmem S256x2048 .i32) (h4 : a4.IsWhole) (a5 : Memref sig .tc .vmem S256x1 .f32) (h5 : a5.IsWhole)
    (a6 : Memref sig .tc .vmem S1x256 .f32) (h6 : a6.IsWhole) (a7 : Memref sig .tc .vmem S512x256 .f32) (h7 : a7.IsWhole)
    (a8 : Memref sig .tc .vmem S512x256 .f32) (h8 : a8.IsWhole) (hc0 : ¬cond0_0 i) (hc1 : cond0_1 i)
    (x0 : Vec F S512x2048 .f32) (x1 : Vec F S256x2048 .i32) (x2 : Vec F S256x1 .f32) (x3 : Vec F S1x256 .f32) (xs0 : Vec F S512x256 .f32) :
    out0_B_4 c i a3 h3 a4 h4 a5 h5 a6 h6 a7 h7 a8 h8 hc0 hc1 x0 x1 x2 x3 xs0 = k0_pay3 (k0_pay2 x0 x1 x2 xs0) x3 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  sl_unfold_words
  rw [View.canon_unit_zero hz, View.readCov_unit_zero (S := S512x256) _ hz]
  simp only [View.readAt_eq_ld, h3.read_unread, h4.read_unread, h5.read_unread, h6.read_unread, h8.read_unread,
    View.ld_unit_zero (S := S512x2048) hz, View.ld_unit_zero (S := S256x2048) hz, View.ld_unit_zero (S := S256x1) hz,
    View.ld_unit_zero (S := S512x256) hz, View.ld_unit_zero (S := S1x256) hz]

/-- At a point with reduction coordinate 0 the scratch ends at the zero block plus this point's product. -/
theorem sout_A (c : Dev nD) (i : grid0.Coords) (a3 : Memref sig .tc .vmem S512x2048 .f32) (h3 : a3.IsWhole)
    (a4 : Memref sig .tc .vmem S256x2048 .i32) (h4 : a4.IsWhole) (a5 : Memref sig .tc .vmem S256x1 .f32) (h5 : a5.IsWhole)
    (a6 : Memref sig .tc .vmem S1x256 .f32) (h6 : a6.IsWhole) (a7 : Memref sig .tc .vmem S512x256 .f32) (h7 : a7.IsWhole)
    (a8 : Memref sig .tc .vmem S512x256 .f32) (h8 : a8.IsWhole) (hc0 : cond0_0 i) (hc1 : ¬cond0_1 i)
    (x0 : Vec F S512x2048 .f32) (x1 : Vec F S256x2048 .i32) (x2 : Vec F S256x1 .f32) (x3 : Vec F S1x256 .f32) :
    sout0_A_0 c i a3 h3 a4 h4 a5 h5 a6 h6 a7 h7 a8 h8 hc0 hc1 x0 x1 x2 x3 = k0_pay2 x0 x1 x2 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x256) hz, View.readCov_unit_zero (S := S512x256) _ hz]
  simp only [View.readAt_eq_ld, h3.read_unread, h4.read_unread, h5.read_unread,
    View.ld_unit_zero (S := S512x2048) hz, View.ld_unit_zero (S := S256x2048) hz, View.ld_unit_zero (S := S256x1) hz]

end Cert.KernelIdeal.Pieces

end
-- ==== Proof.Carry.lean ====
/-
  What the carried block and the output block hold after a grid point, as the body's arithmetic of the points' blocks.

  Every output block is visited at two consecutive points. At the first (reduction coordinate 0) the carried block
  becomes the reset block plus the first product; at the second (reduction coordinate 1) it becomes that plus the
  second product, and the output block is stored from it with the bias added. So the stored output block depends on
  the blocks of exactly two points, and no induction over the grid is needed.
-/
import proofs.«144650_j24180665877009_2_alg».proof.Proof.Pieces

set_option maxRecDepth 16384

noncomputable section

open Idealize.ShloMosaic Idealize.ShloMosaic.TcCoe Idealize.SL.Sem

namespace Cert.KernelIdeal.Carry

open Cert.KernelIdeal Cert.KernelIdeal.Gen

variable {F : FTy → Type} [FloatOps F]
variable (m : (ℓ : Loc nD τ sig) → Buf (Elt F) ℓ)

/-- The grid point before `t`. -/
abbrev prev (t : Fin cfg0.N) : Fin cfg0.N := ⟨t.val - 1, Nat.lt_of_le_of_lt (Nat.sub_le _ _) t.isLt⟩

/-- After a point with reduction coordinate 0 the carried block is the reset block plus that point's product. -/
theorem carried_first (c : Dev nD) (t : Fin cfg0.N) (h0 : t.val % 2 = 0) :
    (outsAt0 m c t.val t.isLt).2
      = k0_pay2 (iblk m c 0 t) (iblk m c 1 t) (iblk m c 2 t) (k0_pay1 (F := F)) := by
  have h1 : ¬t.val % 2 = 1 := by omega
  rw [outsAt0_A m c t h0 h1]
  dsimp only
  exact Pieces.sout_A ..

/-- After a point with reduction coordinate 1 the output block is the two points' products on the reset block, plus
    the bias row. -/
theorem stored_second (c : Dev nD) (t : Fin cfg0.N) (h1 : t.val % 2 = 1) :
    (outsAt0 m c t.val t.isLt).1
      = k0_pay3 (k0_pay2 (iblk m c 0 t) (iblk m c 1 t) (iblk m c 2 t)
          (k0_pay2 (iblk m c 0 (prev t)) (iblk m c 1 (prev t)) (iblk m c 2 (prev t)) (k0_pay1 (F := F)))) (iblk m c 3 t) := by
  have h0 : ¬t.val % 2 = 0 := by omega
  have hp : (prev t).val % 2 = 0 := by show (t.val - 1) % 2 = 0; omega
  rw [outsAt0_B m c t h0 h1]
  dsimp only
  refine (Pieces.out_B ..).trans ?_
  exact congrArg (fun z => k0_pay3 (k0_pay2 (iblk m c 0 t) (iblk m c 1 t) (iblk m c 2 t) z) (iblk m c 3 t))
    (carried_first m c (prev t) hp)

end Cert.KernelIdeal.Carry

end
-- ==== Proof.Payload.lean ====
/-
  The body's arithmetic read at one element, over the extended reals.

  At `Ideal` a change of float format is the identity and the matrix unit's product into a zero accumulator is the
  plain sum of products, so the accumulating step at row `p`, column `q` of the block is the carried value plus
  `∑ₖ x[p, k] · ((q_weight[q, k] − 128) · scale[q])` over the 2048 features of the block; the reset block is zero
  everywhere; and the final step adds the bias row's entry of column `q`.
-/
import proofs.«144650_j24180665877009_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The matrix product of two blocks, both with the contracted axis last -/

/-- The left operand's row coordinate is the output's row. -/
theorem lhs_row (j : S512x256.Idx) (kk : dot_S512x2048_S256x2048_S512x256_1_1_0_0_n_n.contr.Idx) :
    (dot_S512x2048_S256x2048_S512x256_1_1_0_0_n_n.lhsIdx j kk 0).val = (j 0).val := by
  unfold DotDims.lhsIdx
  rw [dif_neg (show ¬(0 : Fin S512x2048.rank) ∈ dot_S512x2048_S256x2048_S512x256_1_1_0_0_n_n.lhsBatch by decide),
    dif_pos (show (0 : Fin S512x2048.rank) ∈ dot_S512x2048_S256x2048_S512x256_1_1_0_0_n_n.lhsNonContracting by decide)]
  rfl

/-- The right operand's row coordinate is the output's column. -/
theorem rhs_row (j : S512x256.Idx) (kk : dot_S512x2048_S256x2048_S512x256_1_1_0_0_n_n.contr.Idx) :
    (dot_S512x2048_S256x2048_S512x256_1_1_0_0_n_n.rhsIdx j kk 0).val = (j 1).val := by
  unfold DotDims.rhsIdx
  rw [dif_neg (show ¬(0 : Fin S256x2048.rank) ∈ dot_S512x2048_S256x2048_S512x256_1_1_0_0_n_n.rhsBatch by decide),
    dif_pos (show (0 : Fin S256x2048.rank) ∈ dot_S512x2048_S256x2048_S512x256_1_1_0_0_n_n.rhsNonContracting by decide)]
  rfl

/-- Into the zero accumulator, entry `(p, q)` of the product is `∑ₖ l[p, k] · r[q, k]`. -/
theorem matmul_read (l : FVec Ideal S512x2048 .bf16) (r : FVec Ideal S256x2048 .bf16) (p : Fin 512) (q : Fin 256) :
    matmul dot_S512x2048_S256x2048_S512x256_1_1_0_0_n_n none l r (constant (F := Ideal) S512x256 .f32 0x00000000#32) (ix2 p q)
      = ∑ k : Fin 2048, l (ix2 p k) * r (ix2 q k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p q) ((contrEquiv1 dot_S512x2048_S256x2048_S512x256_1_1_0_0_n_n 2048 rfl rfl).symm k) = ix2 p k :=
    funext fun a => Fin.ext (by
      match a with
      | ⟨0, _⟩ => exact lhs_row _ _
      | ⟨1, _⟩ => exact (dot_S512x2048_S256x2048_S512x256_1_1_0_0_n_n.lhsIdx_val_of_single rfl _ _).trans hk)
  have er : dot_S512x2048_S256x2048_S512x256_1_1_0_0_n_n.rhsIdx (ix2 p q) ((contrEquiv1 dot_S512x2048_S256x2048_S512x256_1_1_0_0_n_n 2048 rfl rfl).symm k) = ix2 q k :=
    funext fun a => Fin.ext (by
      match a with
      | ⟨0, _⟩ => exact rhs_row _ _
      | ⟨1, _⟩ => exact (dot_S512x2048_S256x2048_S512x256_1_1_0_0_n_n.rhsIdx_val_of_single rfl _ _).trans hk)
  rw [el, er]

/-! ## A column broadcast along rows -/

/-- A `[256, 1]` column broadcast to `[256, 2048]` reads, at `(q, k)`, the column's entry of row `q`. -/
theorem col_broadcast (v : S256x1.Idx → EReal) (h : S256x1.Broadcasts S256x2048) (q : Fin 256) (k : Fin 2048) :
    broadcastTo S256x2048 v h (ix2 q k) = v (ix2 q (0 : Fin 1)) := by
  refine broadcastTo_apply v h (ix2 q k) (ix2 q (0 : Fin 1)) fun ax => ?_
  match ax with
  | ⟨0, _⟩ => rfl
  | ⟨1, _⟩ => rfl

/-! ## The three stored values at an element -/

/-- The reset block is zero. -/
theorem reset_apply (j : S512x256.Idx) : k0_pay1 (F := Ideal) j = 0 := by
  unfold k0_pay1
  simp only [shapeCast_self]
  exact Ideal.ofBits_zero_f32

/-- The accumulating step: the carried entry plus the block's sum of products. -/
theorem accum_apply (v3 : Vec Ideal S512x2048 .f32) (v6 : Vec Ideal S256x2048 .i32) (v10 : Vec Ideal S256x1 .f32)
    (v14 : Vec Ideal S512x256 .f32) (p : Fin 512) (q : Fin 256) :
    k0_pay2 v3 v6 v10 v14 (ix2 p q)
      = v14 (ix2 p q) + ∑ k : Fin 2048, v3 (ix2 p k)
          * ((FloatOps.sitofp (F := Ideal) .f32 (v6 (ix2 q k)) - Ideal.ofBits .f32 0x43000000#32) * v10 (ix2 q (0 : Fin 1))) := by
  unfold k0_pay2
  simp only [shapeCast_self]
  refine (addf_apply _ _ _).trans ?_
  refine congrArg (v14 (ix2 p q) + ·) ?_
  refine (matmul_read _ _ p q).trans ?_
  refine Finset.sum_congr rfl fun k _ => ?_
  refine (congrArg (v3 (ix2 p k) * ·) ?_)
  refine (mulf_apply _ _ _).trans ?_
  exact congrArg₂ (· * ·) rfl (col_broadcast v10 _ q k)

/-- The final step: the accumulated entry plus the bias row's entry of the column. -/
theorem final_apply (v23 : Vec Ideal S512x256 .f32) (v24 : Vec Ideal S1x256 .f32) (p : Fin 512) (q : Fin 256) :
    k0_pay3 v23 v24 (ix2 p q) = v23 (ix2 p q) + v24 (ix2 (0 : Fin 1) q) := by
  unfold k0_pay3
  simp only [shapeCast_self]
  refine (addf_apply _ _ _).trans ?_
  exact congrArg (v23 (ix2 p q) + ·) (broadcastTo_1b_ab_apply v24 _ p q)

/-- The weight's entry as the body computes it from a weight block and a scale block. -/
def w (v6 : Vec Ideal S256x2048 .i32) (v10 : Vec Ideal S256x1 .f32) (q : Fin 256) (k : Fin 2048) : EReal :=
  (FloatOps.sitofp (F := Ideal) .f32 (v6 (ix2 q k)) - Ideal.ofBits .f32 0x43000000#32) * v10 (ix2 q (0 : Fin 1))

/-- One product term of a block's sum: the `x` block's entry times the weight's. -/
def term (v3 : Vec Ideal S512x2048 .f32) (v6 : Vec Ideal S256x2048 .i32) (v10 : Vec Ideal S256x1 .f32)
    (p : Fin 512) (q : Fin 256) (k : Fin 2048) : EReal :=
  v3 (ix2 p k) * w v6 v10 q k

/-- TWO CONSECUTIVE POINTS of one output block: reset and accumulate over the first half of the features, then
    accumulate over the second half and add the bias. The stored entry is the two half sums plus the bias. -/
theorem two_steps_apply (x0 x0' : Vec Ideal S512x2048 .f32) (x1 x1' : Vec Ideal S256x2048 .i32)
    (x2 x2' : Vec Ideal S256x1 .f32) (x3' : Vec Ideal S1x256 .f32) (p : Fin 512) (q : Fin 256) :
    k0_pay3 (k0_pay2 x0' x1' x2' (k0_pay2 x0 x1 x2 (k0_pay1 (F := Ideal)))) x3' (ix2 p q)
      = ((∑ k : Fin 2048, term x0 x1 x2 p q k) + ∑ k : Fin 2048, term x0' x1' x2' p q k)
          + x3' (ix2 (0 : Fin 1) q) := by
  refine (final_apply _ x3' p q).trans ?_
  refine congrArg (· + x3' (ix2 (0 : Fin 1) q)) ?_
  refine (accum_apply x0' x1' x2' _ p q).trans ?_
  refine congrArg (· + ∑ k : Fin 2048, term x0' x1' x2' p q k) ?_
  refine (accum_apply x0 x1 x2 _ p q).trans ?_
  rw [reset_apply, zero_add]
  rfl

end Cert.KernelIdeal.Payload

end
-- ==== Proof.Spec.lean ====
/-
  The quantized linear layer as ONE function of the argument arrays, index by index, over the extended reals:
  the weight of output channel `o` at input feature `k` is the integer `q_weight[o, k]` read as a real, minus the
  zero point 128, times the channel's scale; the result at `(b, s, o)` is the sum over the 4096 input features of
  `x[b, s, k]` times that weight, plus `bias[o]`.

  The one algebraic law the two programs differ by is also here: a sum over 4096 features is the sum over the
  first 2048 plus the sum over the last 2048 (addition of extended reals is associative and commutative, so no
  finiteness is needed).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

/-- `x`: batch × sequence × input features. -/
abbrev SX : Shape := ⟨3, ![4, 2048, 4096]⟩
/-- `q_weight`: output channels × input features. -/
abbrev SQ : Shape := ⟨2, ![11008, 4096]⟩
/-- `scale`: one per output channel, kept as a column. -/
abbrev SS : Shape := ⟨2, ![11008, 1]⟩
/-- `bias`: one per output channel. -/
abbrev SB : Shape := ⟨1, ![11008]⟩
/-- The result: batch × sequence × output channels. -/
abbrev SO : Shape := ⟨3, ![4, 2048, 11008]⟩
/-- The result with batch and sequence merged into one row axis. -/
abbrev SO2 : Shape := ⟨2, ![8192, 11008]⟩

/-- The dequantized weight of output channel `o` at input feature `k`: `(q − 128) · scale[o]`. -/
def wt (qw : SQ.Idx → BitVec 32) (sc : SS.Idx → EReal) (o : Fin 11008) (k : Fin 4096) : EReal :=
  (FloatOps.sitofp (F := Ideal) .f32 (qw (ix2 o k)) - Ideal.ofBits .f32 0x43000000#32) * sc (ix2 o (0 : Fin 1))

/-- One term of the sum: `x[a, s, k] · w[o, k]`. -/
def term (x : SX.Idx → EReal) (qw : SQ.Idx → BitVec 32) (sc : SS.Idx → EReal)
    (a : Fin 4) (s : Fin 2048) (o : Fin 11008) (k : Fin 4096) : EReal :=
  x (ix3 a s k) * wt qw sc o k

/-- The result at batch `a`, position `s`, channel `o`: `∑ₖ x[a, s, k] · w[o, k] + bias[o]`. -/
def lin (x : SX.Idx → EReal) (qw : SQ.Idx → BitVec 32) (sc : SS.Idx → EReal) (b : SB.Idx → EReal)
    (a : Fin 4) (s : Fin 2048) (o : Fin 11008) : EReal :=
  (∑ k : Fin 4096, term x qw sc a s o k) + b (ix1 o)

/-- The whole result array. -/
def G (x : SX.Idx → EReal) (qw : SQ.Idx → BitVec 32) (sc : SS.Idx → EReal) (b : SB.Idx → EReal) : SO.Idx → EReal :=
  fun i => lin x qw sc b (i 0) (i 1) (i 2)

/-- The same with rows `r = 2048·a + s`: what a program that merges batch and sequence computes. -/
def H (x : SX.Idx → EReal) (qw : SQ.Idx → BitVec 32) (sc : SS.Idx → EReal) (b : SB.Idx → EReal) : SO2.Idx → EReal :=
  fun j => lin x qw sc b ⟨(j 0).val / 2048, by have := idx2_lt0 j; omega⟩ ⟨(j 0).val % 2048, Nat.mod_lt _ (by decide)⟩ (j 1)

/-- Splitting the merged row axis back into batch and sequence turns `H` into `G`: row `2048·a + s` is `(a, s)`. -/
theorem unmerge_eq (x : SX.Idx → EReal) (qw : SQ.Idx → BitVec 32) (sc : SS.Idx → EReal) (b : SB.Idx → EReal)
    (h : SO2.ShapeCasts SO) : shapeCast SO (H x qw sc b) h = G x qw sc b := by
  funext i
  obtain ⟨a, s, o, rfl⟩ : ∃ (a : Fin 4) (s : Fin 2048) (o : Fin 11008), i = ix3 a s o := ⟨i 0, i 1, i 2, eq_ix3 i⟩
  have hs : s.val < 2048 := s.isLt
  have ha : a.val < 4 := a.isLt
  refine (shapeCast_apply _ h (ix3 a s o) (ix2 (⟨2048 * a.val + s.val, by omega⟩ : Fin 8192) o) ?_).trans ?_
  · rw [Shape.rowMajor_val_two, Shape.rowMajor_val_three]
    show (2048 * a.val + s.val) * 11008 + o.val = (a.val * 2048 + s.val) * 11008 + o.val
    omega
  · show lin x qw sc b ⟨(2048 * a.val + s.val) / 2048, _⟩ ⟨(2048 * a.val + s.val) % 2048, _⟩ o = lin x qw sc b a s o
    have e1 : (2048 * a.val + s.val) / 2048 = a.val := by omega
    have e2 : (2048 * a.val + s.val) % 2048 = s.val := by omega
    exact congrArg₂ (fun A S => lin x qw sc b A S o) (Fin.ext e1) (Fin.ext e2)

/-- A sum over 4096 terms is the sum of its first 2048 plus the sum of its last 2048. -/
theorem sum_halves (f : Fin 4096 → EReal) :
    ∑ k : Fin 4096, f k
      = (∑ k : Fin 2048, f ⟨k.val, by omega⟩) + ∑ k : Fin 2048, f ⟨2048 + k.val, by omega⟩ :=
  Fin.sum_univ_add (a := 2048) (b := 2048) f

end Cert.Spec

end
-- ==== Proof.Result.lean ====
/-
  The launch's result array, as one function of the argument arrays.

  Every output block is written back once, after the second of its two grid points, and what is written is the two
  half sums of products plus the bias (the body's arithmetic at the two points' blocks). Read element by element
  through the blocks' positions, that is entry `(r, o)` of the merged result `H`: the sum over all 4096 features,
  split into its two halves, plus `bias[o]`. The output blocks tile the merged array, so after the run the array
  holds `H` everywhere.
-/
import proofs.«144650_j24180665877009_2_alg».proof.Proof.Blocks
import proofs.«144650_j24180665877009_2_alg».proof.Proof.Carry
import proofs.«144650_j24180665877009_2_alg».proof.Proof.Payload
import proofs.«144650_j24180665877009_2_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ)

/-- The merged result of the launch contents of the four arguments. -/
abbrev merged (c : Dev nD) : S8192x11008.Idx → EReal :=
  Cert.Spec.H (m ((c : Thread nD τ).loc main_arg0)) (m ((c : Thread nD τ).loc main_arg1)) (m ((c : Thread nD τ).loc main_arg2)) (m ((c : Thread nD τ).loc main_arg3))

/-- One product term of a point's block sum is the corresponding term of the whole sum. -/
theorem term_eq (c : Dev nD) (t : Fin cfg0.N) (p : Fin 512) (q : Fin 256) (k : Fin 2048)
    (a : Fin 4) (s : Fin 2048) (o : Fin 11008) (kk : Fin 4096)
    (hr : a.val * 2048 + s.val = 512 * (t.val / 86) + p.val) (ho : o.val = 256 * (t.val / 2 % 43) + q.val)
    (hk : kk.val = 2048 * (t.val % 2) + k.val) :
    Payload.term (iblk m c 0 t) (iblk m c 1 t) (iblk m c 2 t) p q k
      = Cert.Spec.term (m ((c : Thread nD τ).loc main_arg0)) (m ((c : Thread nD τ).loc main_arg1)) (m ((c : Thread nD τ).loc main_arg2)) a s o kk := by
  unfold Payload.term Payload.w Cert.Spec.term Cert.Spec.wt
  refine congrArg₂ (· * ·) (Blocks.x_block_apply m c t (ix2 p k) (ix3 a s kk) hr hk) ?_
  refine congrArg₂ (· * ·) ?_ (Blocks.s_block_apply m c t (ix2 q (0 : Fin 1)) (ix2 o (0 : Fin 1)) ho)
  exact congrArg (fun z => FloatOps.sitofp (F := Ideal) .f32 z - Ideal.ofBits .f32 0x43000000#32)
    (Blocks.q_block_apply m c t (ix2 q k) (ix2 o kk) ho hk)

/-- WHAT A WRITE-BACK WRITES is its block of the merged result. -/
theorem flushed_eq (c : Dev nD) (t : Fin cfg0.N) (hf : (cfg0.win 4).flush t = true) :
    (dats m 0 c).flushed 4 t = ((cfg0.win 4).blk t).view.read (Elt Ideal) (merged m c) := by
  have h1 : t.val % 2 = 1 := (flush0_4 t).mp hf
  have hN : t.val < 1376 := lt_of_lt_of_eq t.isLt (show cfg0.N = 1376 from N_0)
  have hprev : (Carry.prev t).val = t.val - 1 := rfl
  show (cfg0.win 4).cut (grid0.coords t) ((dats m 0 c).after 4 t) = _
  rw [after0_4, Carry.stored_second m c t h1]
  funext y
  obtain ⟨p, q, rfl⟩ : ∃ (p : Fin 512) (q : Fin 256), y = ix2 p q := ⟨y 0, y 1, eq_ix2 y⟩
  have hp : p.val < 512 := p.isLt
  have hq : q.val < 256 := q.isLt
  obtain ⟨r, hr⟩ : ∃ r : Fin 8192, r.val = 512 * (t.val / 86) + p.val := ⟨⟨_, by omega⟩, rfl⟩
  obtain ⟨o, ho⟩ : ∃ o : Fin 11008, o.val = 256 * (t.val / 2 % 43) + q.val := ⟨⟨_, by omega⟩, rfl⟩
  rw [View.read_apply, Blocks.out_block_emb t p q (ix2 r o) hr ho]
  refine (Payload.two_steps_apply (iblk m c 0 (Carry.prev t)) (iblk m c 0 t) (iblk m c 1 (Carry.prev t)) (iblk m c 1 t)
    (iblk m c 2 (Carry.prev t)) (iblk m c 2 t) (iblk m c 3 t) p q).trans ?_
  show _ = Cert.Spec.lin (m ((c : Thread nD τ).loc main_arg0)) (m ((c : Thread nD τ).loc main_arg1)) (m ((c : Thread nD τ).loc main_arg2)) (m ((c : Thread nD τ).loc main_arg3)) ⟨r.val / 2048, _⟩ ⟨r.val % 2048, _⟩ o
  unfold Cert.Spec.lin
  rw [Cert.Spec.sum_halves]
  refine congrArg₂ (· + ·) (congrArg₂ (· + ·) (Finset.sum_congr rfl fun k _ => ?_) (Finset.sum_congr rfl fun k _ => ?_)) ?_
  · have hk : k.val < 2048 := k.isLt
    exact term_eq m c (Carry.prev t) p q k ⟨r.val / 2048, by omega⟩ ⟨r.val % 2048, Nat.mod_lt _ (by decide)⟩ o ⟨k.val, by omega⟩
      (by show r.val / 2048 * 2048 + r.val % 2048 = 512 * ((Carry.prev t).val / 86) + p.val; omega)
      (by rw [hprev]; omega) (by show k.val = 2048 * ((Carry.prev t).val % 2) + k.val; omega)
  · have hk : k.val < 2048 := k.isLt
    exact term_eq m c t p q k ⟨r.val / 2048, by omega⟩ ⟨r.val % 2048, Nat.mod_lt _ (by decide)⟩ o ⟨2048 + k.val, by omega⟩
      (by show r.val / 2048 * 2048 + r.val % 2048 = 512 * (t.val / 86) + p.val; omega)
      ho (by show 2048 + k.val = 2048 * (t.val % 2) + k.val; omega)
  · exact Blocks.b_block_apply m c t q o ho

/-- Every element of the merged result is in the block of a point that writes back: the second point of its
    row block and channel block. -/
theorem covered (i : S8192x11008.Idx) :
    ∃ t : Fin cfg0.N, (cfg0.win 4).flush t = true ∧ i ∈ ((cfg0.win 4).blk t).view.set := by
  have h0 : (i 0).val < 8192 := (i 0).isLt
  have h1 : (i 1).val < 11008 := (i 1).isLt
  have hN : cfg0.N = 1376 := N_0
  obtain ⟨t, ht⟩ : ∃ t : Fin cfg0.N, t.val = ((i 0).val / 512 * 43 + (i 1).val / 256) * 2 + 1 :=
    ⟨⟨_, by rw [hN]; omega⟩, rfl⟩
  obtain ⟨-, -, -, -, -, -, -, -, e40, e41⟩ := Blocks.idx_facts t
  refine ⟨t, (flush0_4 t).mpr (by omega), ?_⟩
  show i ∈ ((View.whole main_v2).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e40]; omega
  | ⟨1, _⟩ =>
    show win0_4.index t (1 : Fin 2) * 256 ≤ (i 1).val ∧ (i 1).val < win0_4.index t (1 : Fin 2) * 256 + 256
    rw [e41]; omega

/-- THE ARRAY AFTER THE RUN: the merged result. -/
theorem final (c : Dev nD) : (dats m 0 c).arrAt 4 cfg0.N = merged m c :=
  (dats m 0 c).arrAt_eq_of_cover 4 (merged m c) (flushed_eq m c) covered

end Cert.KernelIdeal.Result

end
-- ==== Proof.KernelRun.lean ====
/-
  The kernel program's run, read: its result is `G` of the arguments.

  After the launch the host splits the merged row axis of the launch's result back into batch and sequence; the
  merged result is `H`, and `H` with its rows split is `G`. The argument arrays end as they began.
-/
import proofs.«144650_j24180665877009_2_alg».proof.Proof.Result
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- What the program returns: `G` of the launch contents of the four arguments. -/
abbrev result (c : Dev nD) : Buf (Elt Ideal) ((c : Thread nD τ).loc main_v3) :=
  Cert.Spec.G (m ((c : Thread nD τ).loc main_arg0)) (m ((c : Thread nD τ).loc main_arg1)) (m ((c : Thread nD τ).loc main_arg2)) (m ((c : Thread nD τ).loc main_arg3))

/-- The host's reshape after the launch leaves the result buffer at the merged result with its rows split. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.tc.devRef main_v2) = merged m c :=
    (Pipeline.withArrays_arr (cfgs 0).spec launch0.win.arr_inj c _ _ 4).trans (final m c)
  funext i
  show shapeCast S4x2048x11008 (Pipeline.withArrays (cfgs 0).spec c (V0 m c) (fun w => (dats m 0 c).arrAt w (cfgs 0).N)
      (Proc.tc.devRef main_v2)) shapeCasts_S8192x11008_S4x2048x11008 i = _
  rw [e]
  exact congrFun (Cert.Spec.unmerge_eq _ _ _ _ shapeCasts_S8192x11008_S4x2048x11008) i

/-- THE RUN, READ: every execution of the kernel program ends with the result buffer at `G` of the arguments and
    the arguments as launched. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefSpec.lean ====
/-
  The reference computes `G`.

  Its operations, read at one index: the integer weights converted, the zero point subtracted, the scale column
  broadcast along the features and multiplied in; the contraction of `x`'s feature axis with the weight's, which over
  the extended reals is the sum over the 4096 features; and the bias broadcast over batch and sequence and added.
-/
import proofs.«144650_j24180665877009_2_alg».proof.Proof.Gen.ReferenceIdeal.Read
import proofs.«144650_j24180665877009_2_alg».proof.Proof.Spec

noncomputable section

open scoped BigOperators
open Idealize.ShloMosaic Idealize.ShloMosaic.ValueIdx

namespace Cert.ReferenceIdeal.RefValue

open Cert.ReferenceIdeal Cert.ReferenceIdeal.Read

/-- The reference's last stage is `G` of its arguments. -/
theorem result_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v8 (F := Ideal) x0 x1 x2 x3 = Cert.Spec.G x0 x1 x2 x3 := by
  funext i
  obtain ⟨a, s, o, rfl⟩ : ∃ (a : Fin 4) (s : Fin 2048) (o : Fin 11008), i = ix3 a s o := ⟨i 0, i 1, i 2, eq_ix3 i⟩
  rw [val_main_v8_apply, val_main_v5_apply, val_main_v7_apply, val_main_v6_apply]
  show (∑ k : Fin 4096, x0 (lidx_main_v5 (ix3 a s o) k) * val_main_v4 (F := Ideal) x1 x2 (ridx_main_v5 (ix3 a s o) k))
      + x3 (idx_main_v6 (idx_main_v7 (ix3 a s o))) = Cert.Spec.lin x0 x1 x2 x3 a s o
  unfold Cert.Spec.lin
  refine congrArg₂ (· + ·) (Finset.sum_congr rfl fun k _ => ?_) ?_
  · have el : lidx_main_v5 (ix3 a s o) k = ix3 a s k :=
      funext fun d => Fin.ext (by match d with | ⟨0, _⟩ => rfl | ⟨1, _⟩ => rfl | ⟨2, _⟩ => rfl)
    have er : ridx_main_v5 (ix3 a s o) k = ix2 o k :=
      funext fun d => Fin.ext (by match d with | ⟨0, _⟩ => rfl | ⟨1, _⟩ => rfl)
    have e3 : idx_main_v3 (ix2 o k) = ix2 o (0 : Fin 1) :=
      funext fun d => Fin.ext (by match d with | ⟨0, _⟩ => rfl | ⟨1, _⟩ => rfl)
    show _ = x0 (ix3 a s k) * Cert.Spec.wt x1 x2 o k
    rw [el, er, val_main_v4_apply, val_main_v2_apply, val_main_v0_apply, val_main_v3_apply, val_main_v1_apply,
      val_main_cst_apply, e3]
    rfl
  · refine congrArg x3 ?_
    funext d; apply Fin.ext
    match d with
    | ⟨0, _⟩ => rfl

end Cert.ReferenceIdeal.RefValue

end
-- ==== Proof.lean ====
/-
  A quantized linear layer: `out[b, s, o] = ∑ₖ x[b, s, k] · (q_weight[o, k] − 128) · scale[o] + bias[o]`.

  The kernel merges batch and sequence into 8192 rows and walks a 16 × 43 × 2 grid: for each 512-row block and each
  256-channel block it sums the products over the first 2048 features into a carried block, then over the last 2048,
  and stores the carried block plus the bias. The reference dequantizes the whole weight matrix and contracts all
  4096 features at once. Over the extended reals the conversions to a shorter float format are the identity and
  the matrix unit's product is the plain sum of products, so the two differ only by splitting a sum of 4096 terms
  into two sums of 2048 — associativity and commutativity of addition, which hold for all extended reals. The
  precondition that the inputs are finite is therefore never opened.

  The three frames are the generated ones (the reference's from its generated run); the idealization rewrote nothing,
  so `preserves` is trivial; `algebraic` puts the kernel's run (Proof/KernelRun.lean: its result is `G` of the
  arguments) beside the reference's run (Proof/RefSpec.lean: its last stage is `G` of the arguments).
-/
import proofs.«144650_j24180665877009_2_alg».proof.Defs
import proofs.«144650_j24180665877009_2_alg».proof.Proof.Gen.Kernel
import proofs.«144650_j24180665877009_2_alg».proof.Proof.Gen.Kernel.Skeleton
import proofs.«144650_j24180665877009_2_alg».proof.Proof.Gen.Kernel.Launch
import proofs.«144650_j24180665877009_2_alg».proof.Proof.Gen.Kernel.Points
import proofs.«144650_j24180665877009_2_alg».proof.Proof.Gen.Kernel.Frame
import proofs.«144650_j24180665877009_2_alg».proof.Proof.Gen.KernelIdeal
import proofs.«144650_j24180665877009_2_alg».proof.Proof.Gen.KernelIdeal.Skeleton
import proofs.«144650_j24180665877009_2_alg».proof.Proof.Gen.KernelIdeal.Launch
import proofs.«144650_j24180665877009_2_alg».proof.Proof.Gen.KernelIdeal.Points
import proofs.«144650_j24180665877009_2_alg».proof.Proof.Gen.KernelIdeal.Frame
import proofs.«144650_j24180665877009_2_alg».proof.Proof.Gen.ReferenceIdeal
import proofs.«144650_j24180665877009_2_alg».proof.Proof.Gen.ReferenceIdeal.Run
import proofs.«144650_j24180665877009_2_alg».proof.Proof.Gen.ReferenceIdeal.Read
import proofs.«144650_j24180665877009_2_alg».proof.Proof.Gen.Pre_finite_inputs
import proofs.«144650_j24180665877009_2_alg».proof.Proof.KernelRun
import proofs.«144650_j24180665877009_2_alg».proof.Proof.RefSpec
import Idealize.ShloMosaic.Adequacy
import Idealize.ShloMosaic.Init

noncomputable section

namespace Cert.Proof

open Idealize.ShloMosaic Idealize.SL.Sem Cert.Kernel

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization is the kernel's own text read over the extended reals. -/
theorem preserves : Cert.preserves_Kernel_KernelIdeal := trivial

/-- Both programs end with the result buffer at `G` of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
